-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x512 : Shape := ⟨2, ![256, 512]⟩
abbrev S1x256 : Shape := ⟨2, ![1, 256]⟩
abbrev S8192x256 : Shape := ⟨2, ![8192, 256]⟩

abbrev nBuf : Space → Nat
  | .hbm => 13
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x512, .bf16⟩
  | .hbm, ⟨11, _⟩ => ⟨S8192x512, .bf16⟩
  | .hbm, ⟨12, _⟩ => ⟨S8192x8192, .f32⟩
  | .local _ .vmem, ⟨0, _⟩ => ⟨S8192x512, .bf16⟩
  | .local _ .vmem, ⟨1, _⟩ => ⟨S256x512, .bf16⟩
  | .local _ .vmem, ⟨2, _⟩ => ⟨S256x512, .bf16⟩
  | .local _ .vmem, ⟨3, _⟩ => ⟨S8192x1, .f32⟩
  | .local _ .vmem, ⟨4, _⟩ => ⟨S1x256, .f32⟩
  | .local _ .vmem, ⟨5, _⟩ => ⟨S1x256, .f32⟩
  | .local _ .vmem, ⟨6, _⟩ => ⟨S8192x256, .f32⟩
  | .local _ .vmem, ⟨7, _⟩ => ⟨S8192x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bitsLt_bf16_f32 : FTy.bits .bf16 < FTy.bits .f32
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S8192x1_S8192x256 : S8192x1.Broadcasts S8192x256
  broadcasts_S1x256_S8192x256 : S1x256.Broadcasts S8192x256
  inb_S8192x256_S8192x256_0_0 : ∀ a, (![0, 0] : Fin 2 → Nat) a + S8192x256.size a ≤ S8192x256.size a
  h_S8192x256 : 0 < S8192x256.numel
  dot_S8192x512_S256x512_S8192x256_1_1_0_0_n_n_wf : DotDims.WF S8192x512 S256x512 S8192x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .bf16 = 32 ∨ (Rect.block (s := S8192x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .f32 = 32 ∨ (Rect.block (s := S8192x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x256.size a ≤ S8192x8192.size a
  hwx0_4 : ∀ i : grid0.Coords, EltTy.bits .f32 = 32 ∨ (Rect.block (s := S8192x8192) S8192x256.size (cc0_transform_4 i) (hinb0_4 i)).WholeWords (EltTy.packing .f32)

variable [Facts₀]

def dot_S8192x512_S256x512_S8192x256_1_1_0_0_n_n : DotDims S8192x512 S256x512 S8192x256 where
  lhsContracting := [1]
  rhsContracting := [1]
  lhsNonContracting := [0]
  rhsNonContracting := [0]
  lhsBatch := []
  rhsBatch := []
  wf := dot_S8192x512_S256x512_S8192x256_1_1_0_0_n_n_wf

abbrev win0_0 : Pipeline.Window sig grid0 :=
  Pipeline.Window.ofSpec (Memref.whole main_call0_v6) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S8192x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8192x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Spec.lean ====
/-
  The Gaussian (radial basis function) kernel matrix of two families of 8192 points in dimension 512, as ONE function of
  the two argument arrays, entry by entry, over the extended reals:

      K (r, c) = exp (−γ · max (|x_r|² + |y_c|² − 2 · ⟨x_r, y_c⟩, 0)),

  the squared distance |x_r − y_c|² expanded into two squared norms and an inner product and clamped at zero. The
  squared norms and the inner product are plain sums over the 512 coordinates; the three constants (the zero that
  starts a sum and clamps the distance, the factor two, the scale −γ) stay the binary32 words the programs carry: the same
  word on both sides is never evaluated. The one law the two programs differ by is stated last: the word of −γ denotes
  the negation of what the word of γ denotes.
-/
import Idealize.ShloMosaic.PureOps.Ideal
import Idealize.ShloMosaic.Lib.ValueIdx

noncomputable section

namespace Cert.Rbf

open Idealize.ShloMosaic Idealize.ShloMosaic.ValueIdx
open scoped BigOperators

/-- A family of 8192 points, one per row, 512 coordinates each. -/
abbrev Pts : Shape := ⟨2, ![8192, 512]⟩
/-- The kernel matrix: one entry per pair (a point of the first family, a point of the second). -/
abbrev Pairs : Shape := ⟨2, ![8192, 8192]⟩

/-- The squared Euclidean norm of point `r`: the sum's initial value (the zero word) plus its 512 squared coordinates. -/
def sqNorm (x : Pts.Idx → EReal) (r : Fin 8192) : EReal :=
  Ideal.ofBits .f32 0x00000000#32 + ∑ k : Fin 512, x (ix2 r k) * x (ix2 r k)

/-- The inner product of point `r` of the first family with point `c` of the second. -/
def dot (x y : Pts.Idx → EReal) (r c : Fin 8192) : EReal :=
  ∑ k : Fin 512, x (ix2 r k) * y (ix2 c k)

/-- The clamped squared distance between point `r` of `x` and point `c` of `y`: (|x_r|² + |y_c|²) − 2 · ⟨x_r, y_c⟩,
    never below zero. -/
def sqDist (x y : Pts.Idx → EReal) (r c : Fin 8192) : EReal :=
  max ((sqNorm x r + sqNorm y c) - Ideal.ofBits .f32 0x40000000#32 * dot x y r c) (Ideal.ofBits .f32 0x00000000#32)

/-- The kernel matrix at entry `i = (r, c)`: the exponential of −γ times the clamped squared distance. -/
def rbf (x y : Pts.Idx → EReal) (i : Pairs.Idx) : EReal :=
  Ideal.exp (Ideal.ofBits .f32 0xBB03126F#32 * sqDist x y (i 0) (i 1))

/-- The two scale words differ in the sign bit only, so one denotes the negation of the other: both are
    ±(2²³ + 201327) · 2⁻³², the binary32 number nearest 1/500. -/
theorem neg_gamma : -(Ideal.ofBits .f32 0x3B03126F#32) = Ideal.ofBits .f32 0xBB03126F#32 := by
  simp [Ideal.ofBits, Ideal.ieee, -EReal.coe_mul]

end Cert.Rbf

end
-- ==== Proof.RefRbf.lean ====
/-
  The reference computes the kernel matrix of `Spec.lean`: its result term, read one operation at a time and index by
  index, is `rbf` of its two argument arrays. Entry `(r, c)` reads the row sums of squares at `r` and at `c` (each
  broadcast along the other axis), the matrix product at `(r, c)` (a sum over the 512 shared coordinates of row `r` of
  the first array and row `c` of the second), and the three scalar constants; the scale is the NEGATED word of γ,
  which `neg_gamma` identifies with the word of −γ.
-/
import proofs.«158460_j65481071397084_2_alg».proof.Proof.Gen.ReferenceIdeal.Read
import proofs.«158460_j65481071397084_2_alg».proof.Proof.Spec

noncomputable section

namespace Cert.Rbf.Ref

open Cert.ReferenceIdeal Cert.ReferenceIdeal.Gen Cert.ReferenceIdeal.Read
open Idealize.ShloMosaic Idealize.ShloMosaic.ValueIdx
open scoped BigOperators

/-- Entry `(r, c)` reads the first array's sum of squares along row `r`: through the two broadcasts, coordinate `k` of row `r`. -/
theorem idx_sq_x (i : Pairs.Idx) (k : Fin 512) : idx_main_v1 (idx_main_v5 (idx_main_v7 i)) k = ix2 (i 0) k :=
  funext fun a => Fin.ext (by match a with | ⟨0, _⟩ => rfl | ⟨1, _⟩ => rfl)

/-- and the second array's along row `c`. -/
theorem idx_sq_y (i : Pairs.Idx) (k : Fin 512) : idx_main_v3 (idx_main_v6 (idx_main_v8 i)) k = ix2 (i 1) k :=
  funext fun a => Fin.ext (by match a with | ⟨0, _⟩ => rfl | ⟨1, _⟩ => rfl)

/-- The matrix product at `(r, c)` pairs coordinate `k` of row `r` of the left operand -/
theorem idx_dot_l (i : Pairs.Idx) (k : Fin 512) : lidx_main_v4 i k = ix2 (i 0) k :=
  funext fun a => Fin.ext (by match a with | ⟨0, _⟩ => rfl | ⟨1, _⟩ => rfl)

/-- with coordinate `k` of row `c` of the right one (both operands are contracted along their second axis). -/
theorem idx_dot_r (i : Pairs.Idx) (k : Fin 512) : ridx_main_v4 i k = ix2 (i 1) k :=
  funext fun a => Fin.ext (by match a with | ⟨0, _⟩ => rfl | ⟨1, _⟩ => rfl)

/-- The reference's result is the kernel matrix of its arguments. -/
theorem result_eq (x y : Pts.Idx → EReal) : val_main_v18 (F := Ideal) x y = rbf x y := by
  funext i
  rw [val_main_v18_apply, val_main_v17_apply, val_main_v16_apply, val_main_v15_apply, val_main_cst_3_apply,
    val_main_v14_apply, val_main_v13_apply, val_main_cst_2_apply, val_main_v12_apply, val_main_v11_apply,
    val_main_v10_apply, val_main_cst_1_apply, val_main_v9_apply, val_main_v8_apply, val_main_v7_apply,
    val_main_v6_apply, val_main_v5_apply, val_main_v4_apply, val_main_v3_apply, val_main_v1_apply]
  simp only [idx_sq_x, idx_sq_y, idx_dot_l, idx_dot_r, val_main_cst_apply, val_main_cst_0_apply, val_main_v0_apply,
    val_main_v2_apply, Ideal.hostUnary_exp_def, Ideal.mulf_def, Ideal.hostNegf_def, Ideal.negf_def, Ideal.maximumf_def,
    Ideal.subf_def, Ideal.addf_def, Ideal.ofBits_def, neg_gamma]
  rfl

end Cert.Rbf.Ref

end
-- ==== Proof.TilePayload.lean ====
/-
  What the kernel body stores, read at one entry of its 8192 × 256 output tile. The body loads four blocks — all 8192
  points of the first family (`xb`), the 256 points of the second family this tile is for (`yb`), the column of the
  8192 squared norms (`xs`) and the row of this tile's 256 squared norms (`ys`) — and stores, at `(p, q)`,

      exp (−γ · max ((xs (p, 0) + ys (0, q)) − 2 · Σ_k xb (p, k) · yb (q, k), 0)).

  The column is broadcast along the tile's rows and the row along its columns; the matrix product contracts the two
  blocks along their second axis into a zero accumulator, which over the extended reals is the plain sum.
-/
import proofs.«158460_j65481071397084_2_alg».proof.Proof.Gen.KernelIdeal.Skeleton
import proofs.«158460_j65481071397084_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Tile

open Cert.KernelIdeal Cert.KernelIdeal.Gen
open Idealize.ShloMosaic Idealize.ShloMosaic.ValueIdx
open scoped BigOperators

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tile's matrix product: each of the 8192 × 256 entries contracts a row of the first block with a row of the
    second, along the 512 coordinates. -/
abbrev tileDot := dot_S8192x512_S256x512_S8192x256_1_1_0_0_n_n

theorem tileDot_lhs0 (i : S8192x256.Idx) (k : tileDot.contr.Idx) : (tileDot.lhsIdx i k 0).val = (i 0).val := by
  unfold DotDims.lhsIdx
  rw [dif_neg (show ¬(0 : Fin S8192x512.rank) ∈ tileDot.lhsBatch by decide),
    dif_pos (show (0 : Fin S8192x512.rank) ∈ tileDot.lhsNonContracting by decide)]
  rfl

theorem tileDot_lhs1 (i : S8192x256.Idx) (k : tileDot.contr.Idx) : (tileDot.lhsIdx i k 1).val = (k ⟨0, by decide⟩).val :=
  tileDot.lhsIdx_val_of_single rfl i k

theorem tileDot_rhs0 (i : S8192x256.Idx) (k : tileDot.contr.Idx) : (tileDot.rhsIdx i k 0).val = (i 1).val := by
  unfold DotDims.rhsIdx
  rw [dif_neg (show ¬(0 : Fin S256x512.rank) ∈ tileDot.rhsBatch by decide),
    dif_pos (show (0 : Fin S256x512.rank) ∈ tileDot.rhsNonContracting by decide)]
  rfl

theorem tileDot_rhs1 (i : S8192x256.Idx) (k : tileDot.contr.Idx) : (tileDot.rhsIdx i k 1).val = (k ⟨0, by decide⟩).val :=
  tileDot.rhsIdx_val_of_single rfl i k

/-- The matrix product into the zero accumulator, at entry `(p, q)`: the inner product of row `p` of the left block
    with row `q` of the right block. -/
theorem matmul_tile_apply (l : FVec Ideal S8192x512 .bf16) (r : FVec Ideal S256x512 .bf16) (p : Fin 8192) (q : Fin 256) :
    matmul (F := Ideal) tileDot none l r (constant (F := Ideal) S8192x256 .f32 0x00000000#32) (ix2 p q)
      = ∑ k : Fin 512, l (ix2 p k) * r (ix2 q k) := by
  simp only [matmul]
  rw [Ideal.matmul_constant_zero_apply, ← Equiv.sum_comp (ValueIdx.contrEquiv1 tileDot 512 rfl rfl).symm]
  refine Finset.sum_congr rfl fun k _ => ?_
  have hk := ValueIdx.contrEquiv1_symm_val tileDot 512 rfl rfl k
  have el : tileDot.lhsIdx (ix2 p q) ((ValueIdx.contrEquiv1 tileDot 512 rfl rfl).symm k) = ix2 p k :=
    funext fun a => Fin.ext (by
      match a with
      | ⟨0, _⟩ => exact tileDot_lhs0 _ _
      | ⟨1, _⟩ => exact (tileDot_lhs1 _ _).trans hk)
  have er : tileDot.rhsIdx (ix2 p q) ((ValueIdx.contrEquiv1 tileDot 512 rfl rfl).symm k) = ix2 q k :=
    funext fun a => Fin.ext (by
      match a with
      | ⟨0, _⟩ => exact tileDot_rhs0 _ _
      | ⟨1, _⟩ => exact (tileDot_rhs1 _ _).trans hk)
  rw [el, er]

/-- The stored value at entry `(p, q)` of the tile, from the four loaded blocks. -/
theorem pay_apply (xb : Vec Ideal S8192x512 .bf16) (yb : Vec Ideal S256x512 .bf16) (xs : Vec Ideal S8192x1 .f32)
    (ys : Vec Ideal S1x256 .f32) (p : Fin 8192) (q : Fin 256) :
    k0_pay1 (F := Ideal) xb yb xs ys (ix2 p q)
      = Ideal.exp (Ideal.ofBits .f32 0xBB03126F#32 *
          max ((xs (ix2 p (0 : Fin 1)) + ys (ix2 (0 : Fin 1) q))
            - Ideal.ofBits .f32 0x40000000#32 * ∑ k : Fin 512, xb (ix2 p k) * yb (ix2 q k))
            (Ideal.ofBits .f32 0x00000000#32)) := by
  unfold k0_pay1
  simp only [shapeCast_self]
  show Ideal.exp (Ideal.ofBits .f32 0xBB03126F#32 *
      max ((broadcastTo S8192x256 xs _ (ix2 p q) + broadcastTo S8192x256 ys _ (ix2 p q))
        - Ideal.ofBits .f32 0x40000000#32 *
          matmul (F := Ideal) tileDot none xb yb (constant (F := Ideal) S8192x256 .f32 0x00000000#32) (ix2 p q))
        (Ideal.ofBits .f32 0x00000000#32)) = _
  rw [broadcastTo_a1_ab_apply, broadcastTo_1b_ab_apply, matmul_tile_apply]

end Cert.Rbf.Tile

end
-- ==== Proof.Entry.lean ====
/-
  What the region finds, when it is entered, in the four arrays its input windows stage — each a function of the two
  argument arrays `x` and `y`:
    · the two arrays of points themselves (the change of float format in front of the region is the identity over the
      extended reals);
    · the column of the squared norms of `x`'s points: entry `(p, 0)` is `sqNorm x p`;
    · the row of the squared norms of `y`'s points: entry `(0, r)` is `sqNorm y r`.
  A squared norm is a sum along a row of the array of squares; the column and the row are that vector of 8192 sums given
  a second axis of extent one, after it or before it.
-/
import proofs.«158460_j65481071397084_2_alg».proof.Proof.Gen.KernelIdeal.Frame
import proofs.«158460_j65481071397084_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf.Entry

open Cert.KernelIdeal Cert.KernelIdeal.Gen
open Idealize.ShloMosaic Idealize.ShloMosaic.TcCoe Idealize.ShloMosaic.ValueIdx Idealize.SL.Sem
open Idealize.ShloMosaic.StableHlo
open scoped BigOperators

/-- The sum along each row of the array of squares, started at the zero word: row `j` gives the squared norm of point `j`. -/
theorem sumsq_apply (h' : S8192x512.ReducesTo [1] S8192) (hs : 0 < S_.numel) (x : Pts.Idx → EReal) (r : Fin 8192) :
    Host.reduceAdd (F := Ideal) (mulf (F := Ideal) (φ := .f32) x x) (constant (F := Ideal) S_ .f32 0x00000000#32) h' hs (ix1 r)
      = sqNorm x r := by
  have hr : S8192x512.Reduces [1] S8192 := by decide
  simp only [Host.reduceAdd, Ideal.hostReduceAdd_def]
  rw [Ideal.hostReduceAdd_single h' hr]
  unfold sqNorm
  refine congrArg (_ + ·) (Finset.sum_congr rfl fun k _ => ?_)
  have e : hr.lift (ix1 r) k = ix2 r k :=
    funext fun a => Fin.ext (by match a with | ⟨0, _⟩ => rfl | ⟨1, _⟩ => rfl)
  show x (hr.lift (ix1 r) k) * x (hr.lift (ix1 r) k) = _
  rw [e]
  rfl

variable (m : (ℓ : Loc nD τ sig) → Buf (Elt Ideal) ℓ)

/-- The first family of points, as launched on core `c`. -/
abbrev X (c : Dev nD) : Pts.Idx → EReal := m ((c : Thread nD τ).loc main_arg0)
/-- The second family of points, as launched on core `c`. -/
abbrev Y (c : Dev nD) : Pts.Idx → EReal := m ((c : Thread nD τ).loc main_arg1)

/-- The region finds the first family of points in the array its first window stages. -/
theorem found_x (c : Dev nD) : (V m c main_call0_v6 : S8192x512.Idx → EReal) = X m c := by
  dsimp only [Gen.V, Gen.hostOps0]; after_results; rfl

/-- and the second family in the array its second window stages. -/
theorem found_y (c : Dev nD) : (V m c main_call0_v7 : S8192x512.Idx → EReal) = Y m c := by
  dsimp only [Gen.V, Gen.hostOps0]; after_results; rfl

/-- The column of squared norms of the first family. -/
theorem found_xs (c : Dev nD) (p : Fin 8192) :
    (V m c main_call0_v2 : S8192x1.Idx → EReal) (ix2 p (0 : Fin 1)) = sqNorm (X m c) p := by
  have e : (V m c main_call0_v2 : S8192x1.Idx → EReal)
      = broadcastInDim S8192x1 ![0] Facts₀.bcast_S8192_S8192x1_0
          (Host.reduceAdd (F := Ideal) (mulf (F := Ideal) (φ := .f32) (X m c) (X m c)) (constant (F := Ideal) S_ .f32 0x00000000#32)
            Facts₀.reducesTo_S8192x512_S8192_d1 Facts₀.h_S_) := by
    dsimp only [Gen.V, Gen.hostOps0]; after_results; rfl
  rw [e]
  refine (broadcastInDim_apply _ _ _ (ix2 p (0 : Fin 1)) (ix1 p) (fun a => ?_)).trans (sumsq_apply _ _ _ p)
  match a with
  | ⟨0, _⟩ => show p.val = if (8192 : Nat) = 1 then 0 else p.val; rw [if_neg (by decide)]

/-- The row of squared norms of the second family. -/
theorem found_ys (c : Dev nD) (r : Fin 8192) :
    (V m c main_call0_v5 : S1x8192.Idx → EReal) (ix2 (0 : Fin 1) r) = sqNorm (Y m c) r := by
  have e : (V m c main_call0_v5 : S1x8192.Idx → EReal)
      = broadcastInDim S1x8192 ![1] Facts₀.bcast_S8192_S1x8192_1
          (Host.reduceAdd (F := Ideal) (mulf (F := Ideal) (φ := .f32) (Y m c) (Y m c)) (constant (F := Ideal) S_ .f32 0x00000000#32)
            Facts₀.reducesTo_S8192x512_S8192_d1 Facts₀.h_S_) := by
    dsimp only [Gen.V, Gen.hostOps0]; after_results; rfl
  rw [e]
  refine (broadcastInDim_apply _ _ _ (ix2 (0 : Fin 1) r) (ix1 r) (fun a => ?_)).trans (sumsq_apply _ _ _ r)
  match a with
  | ⟨0, _⟩ => show r.val = if (8192 : Nat) = 1 then 0 else r.val; rw [if_neg (by decide)]

end Cert.Rbf.Entry

end
-- ==== Proof.Tiles.lean ====
/-
  From tiles to the matrix. The grid has 32 points; point `t` computes the 8192 × 256 tile of columns
  `256 t … 256 t + 255`. At every point the first family's block is all of it and the column of its squared norms is
  whole; the second family's block is its points `256 t … 256 t + 255` and the row of squared norms is cut the same way.
  So entry `(p, q)` of tile `t` is the kernel matrix at `(p, 256 t + q)`: every tile is the restriction of the ONE function
  `rbf x y`, the 32 tiles cover the matrix, and the array the run leaves is `rbf x y`.
-/
import proofs.«158460_j65481071397084_2_alg».proof.Proof.Gen.KernelIdeal.Value
import proofs.«158460_j65481071397084_2_alg».proof.Proof.TilePayload
import proofs.«158460_j65481071397084_2_alg».proof.Proof.Entry

set_option maxRecDepth 16384

noncomputable section

namespace Cert.Rbf.Tiles

open Cert.KernelIdeal Cert.KernelIdeal.Gen Cert.Rbf.Entry Cert.Rbf.Tile
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem zero_off : (![0, 0] : Fin 2 → Nat) = fun _ => 0 := funext fun a => by fin_cases a <;> rfl

/-- The block each window is on at point `t`, decided over the 32 points: the first family and its squared norms
    stay on their one block; the second family's block moves down its rows, and its squared norms' and the output's
    along their columns, with `t`. -/
theorem blocks_at : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem point_lt (t : Fin cfg0.N) : t.val < 32 := lt_of_lt_of_eq t.isLt N_0

/-- Column `q` of tile `t` is column `256 t + q` of the matrix (and point `q` of the tile's block of the second family is
    its point `256 t + q`). -/
def col (t : Fin cfg0.N) (q : Fin 256) : Fin 8192 :=
  ⟨t.val * 256 + q.val, by have := point_lt t; have := q.isLt; omega⟩

/-- The first family's block at any point is the whole family. -/
theorem blk_x (c : Dev nD) (t : Fin cfg0.N) (p : Fin 8192) (k : Fin 512) :
    iblk m c 0 t (ix2 p k) = X m c (ix2 p k) := by
  obtain ⟨e0, e1, -⟩ := blocks_at t
  show V m c main_call0_v6 (((cfg0.win 0).blk t).view.emb (ix2 p k)) = _
  have h : ((cfg0.win 0).blk t).view.emb (ix2 p k) = ix2 p k := by
    funext a; apply Fin.ext
    match a with
    | ⟨0, _⟩ => show win0_0.index t (0 : Fin 2) * 8192 + 1 * p.val = p.val; omega
    | ⟨1, _⟩ => show win0_0.index t (1 : Fin 2) * 512 + 1 * k.val = k.val; omega
  rw [h]
  exact congrFun (found_x m c) (ix2 p k)

/-- The second family's block at point `t` is its points `256 t … 256 t + 255`. -/
theorem blk_y (c : Dev nD) (t : Fin cfg0.N) (q : Fin 256) (k : Fin 512) :
    iblk m c 1 t (ix2 q k) = Y m c (ix2 (col t q) k) := by
  obtain ⟨-, -, e0, e1, -⟩ := blocks_at t
  show V m c main_call0_v7 (((cfg0.win 1).blk t).view.emb (ix2 q k)) = _
  have h : ((cfg0.win 1).blk t).view.emb (ix2 q k) = ix2 (col t q) k := by
    funext a; apply Fin.ext
    match a with
    | ⟨0, _⟩ => show win0_1.index t (0 : Fin 2) * 256 + 1 * q.val = t.val * 256 + q.val; omega
    | ⟨1, _⟩ => show win0_1.index t (1 : Fin 2) * 512 + 1 * k.val = k.val; omega
  rw [h]
  exact congrFun (found_y m c) (ix2 (col t q) k)

/-- The block of the column of squared norms is the whole column. -/
theorem blk_xs (c : Dev nD) (t : Fin cfg0.N) (p : Fin 8192) :
    iblk m c 2 t (ix2 p (0 : Fin 1)) = sqNorm (X m c) p := by
  obtain ⟨-, -, -, -, e0, e1, -⟩ := blocks_at t
  show V m c main_call0_v2 (((cfg0.win 2).blk t).view.emb (ix2 p (0 : Fin 1))) = _
  have h : ((cfg0.win 2).blk t).view.emb (ix2 p (0 : Fin 1)) = ix2 p (0 : Fin 1) := by
    funext a; apply Fin.ext
    match a with
    | ⟨0, _⟩ => show win0_2.index t (0 : Fin 2) * 8192 + 1 * p.val = p.val; omega
    | ⟨1, _⟩ => show win0_2.index t (1 : Fin 2) * 1 + 1 * 0 = 0; omega
  rw [h]
  exact found_xs m c p

/-- The block of the row of squared norms at point `t` is its entries `256 t … 256 t + 255`. -/
theorem blk_ys (c : Dev nD) (t : Fin cfg0.N) (q : Fin 256) :
    iblk m c 3 t (ix2 (0 : Fin 1) q) = sqNorm (Y m c) (col t q) := by
  obtain ⟨-, -, -, -, -, -, e0, e1, -⟩ := blocks_at t
  show V m c main_call0_v5 (((cfg0.win 3).blk t).view.emb (ix2 (0 : Fin 1) q)) = _
  have h : ((cfg0.win 3).blk t).view.emb (ix2 (0 : Fin 1) q) = ix2 (0 : Fin 1) (col t q) := by
    funext a; apply Fin.ext
    match a with
    | ⟨0, _⟩ => show win0_3.index t (0 : Fin 2) * 1 + 1 * 0 = 0; omega
    | ⟨1, _⟩ => show win0_3.index t (1 : Fin 2) * 256 + 1 * q.val = t.val * 256 + q.val; omega
  rw [h]
  exact found_ys m c (col t q)

/-- WHAT POINT `t` WRITES BACK is tile `t` of the kernel matrix of the argument arrays. -/
theorem tile_eq (c : Dev nD) (t : Fin cfg0.N) :
    (dats m 0 c).flushed 4 t = ((cfg0.win 4).blk t).view.read (Elt Ideal) (rbf (X m c) (Y m c)) := by
  rw [Value.flushed4]
  unfold out0_4
  rw [View.canon_unit_zero zero_off]
  simp only [View.ld_unit_zero (S := S8192x512) zero_off, View.ld_unit_zero (S := S256x512) zero_off,
    View.ld_unit_zero (S := S8192x1) zero_off, View.ld_unit_zero (S := S1x256) zero_off]
  obtain ⟨-, -, -, -, -, -, -, -, e0, e1⟩ := blocks_at t
  funext j
  obtain ⟨p, q, rfl⟩ : ∃ (p : Fin 8192) (q : Fin 256), j = ix2 p q := ⟨j 0, j 1, eq_ix2 j⟩
  have hi : ((cfg0.win 4).blk t).view.emb (ix2 p q) = ix2 p (col t q) := by
    funext a; apply Fin.ext
    match a with
    | ⟨0, _⟩ => show win0_4.index t (0 : Fin 2) * 8192 + 1 * p.val = p.val; omega
    | ⟨1, _⟩ => show win0_4.index t (1 : Fin 2) * 256 + 1 * q.val = t.val * 256 + q.val; omega
  show k0_pay1 (iblk m c 0 t) (iblk m c 1 t) (iblk m c 2 t) (iblk m c 3 t) (ix2 p q)
    = rbf (X m c) (Y m c) (((cfg0.win 4).blk t).view.emb (ix2 p q))
  rw [hi]
  refine (pay_apply (iblk m c 0 t) (iblk m c 1 t) (iblk m c 2 t) (iblk m c 3 t) p q).trans ?_
  rw [blk_xs m c t p, blk_ys m c t q]
  simp only [blk_x m c t, blk_y m c t]
  rfl

/-- An index of the matrix is in tile `t` iff each coordinate is in the tile's range on its axis. -/
theorem mem_tile (t : Fin cfg0.N) (i : S8192x8192.Idx) :
    i ∈ ((cfg0.win 4).blk t).view.set ↔ ∀ a : Fin 2, win0_4.index t a * S8192x256.size a ≤ (i a).val
      ∧ (i a).val < win0_4.index t a * S8192x256.size a + S8192x256.size a := by
  show i ∈ ((View.whole main_v0).slice (win0_4.rect t)).set ↔ _
  rw [View.set_slice_whole, Rect.mem_set_unit]
  exact Iff.rfl

/-- THE TILES COVER THE MATRIX: column `j` lies in the tile of point `j / 256`. -/
theorem tiles_cover (i : S8192x8192.Idx) :
    ∃ t : Fin cfg0.N, (cfg0.win 4).flush t = true ∧ i ∈ ((cfg0.win 4).blk t).view.set := by
  have hi0 : (i 0).val < 8192 := idx2_lt0 i
  have hi1 : (i 1).val < 8192 := idx2_lt1 i
  have hN : (i 1).val / 256 < cfg0.N := by rw [show cfg0.N = 32 from N_0]; omega
  obtain ⟨-, -, -, -, -, -, -, -, e0, e1⟩ := blocks_at ⟨(i 1).val / 256, hN⟩
  refine ⟨⟨(i 1).val / 256, hN⟩, flush0_4 _, ?_⟩
  rw [mem_tile]
  intro a
  match a with
  | ⟨0, _⟩ =>
    show win0_4.index ⟨(i 1).val / 256, hN⟩ (0 : Fin 2) * 8192 ≤ (i 0).val
      ∧ (i 0).val < win0_4.index ⟨(i 1).val / 256, hN⟩ (0 : Fin 2) * 8192 + 8192
    omega
  | ⟨1, _⟩ =>
    show win0_4.index ⟨(i 1).val / 256, hN⟩ (1 : Fin 2) * 256 ≤ (i 1).val
      ∧ (i 1).val < win0_4.index ⟨(i 1).val / 256, hN⟩ (1 : Fin 2) * 256 + 256
    have : (⟨(i 1).val / 256, hN⟩ : Fin cfg0.N).val = (i 1).val / 256 := rfl
    omega

/-- THE ARRAY after the run is the kernel matrix of the argument arrays. -/
theorem matrix_eq (c : Dev nD) : (dats m 0 c).arrAt 4 cfg0.N = rbf (X m c) (Y m c) :=
  (dats m 0 c).arrAt_eq_of_cover 4 (rbf (X m c) (Y m c)) (fun t _ => tile_eq m c t) tiles_cover

/-- The kernel's run: the result array ends at the kernel matrix of the argument arrays, which end unchanged. -/
theorem run_rbf : θ_run defs (onTc (τ := τ) (main (F := Ideal))) ⟨m, fun _ => 0, ρ⟩ fun r => ∀ c : Dev nD,
      r.2.mem ((c : Thread nD τ).loc main_v0) = rbf (X m c) (Y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (matrix_eq m c), (h c).2⟩) (Value.run_blocks m ρ)

end Cert.Rbf.Tiles

end
-- ==== Proof.lean ====
/-
  The Gaussian kernel matrix K (r, c) = exp (−γ · max (|x_r|² + |y_c|² − 2 ⟨x_r, y_c⟩, 0)) of two families of 8192 points
  in dimension 512, computed two ways that agree entry by entry over the extended reals.

  The kernel computes the two vectors of squared norms in front of its one region, and in the region walks 32 tiles
  of 256 columns: a tile's entry `(p, q)` is the exponential of −γ times the clamped
  (|x_p|² + |y_{256 t + q}|²) − 2 ⟨x_p, y_{256 t + q}⟩, the inner product a matrix product of the whole first family with
  the tile's 256 points of the second (`TilePayload.lean`, over what the region finds in its arrays, `Entry.lean`);
  the tiles are restrictions of one function of the two arrays and cover the matrix (`Tiles.lean`). The reference
  computes the same expression on whole arrays, with the SAME grouping of the three terms (`RefRbf.lean`). Both
  sides are that one function, `Cert.Rbf.rbf` (`Spec.lean`): no sum is reordered against another, nothing is
  distributed or cancelled, so no finiteness of the inputs is used. The one difference between the two texts is the
  scale: the kernel multiplies by the word of −γ, the reference by the negation of the word of γ, and these denote the
  same real number (`Cert.Rbf.neg_gamma`).

  The frames are the generated ones (the reference's is its generated run with the result dropped); the kernel's
  idealization rewrote no operation, so there is nothing to preserve.
-/
import proofs.«158460_j65481071397084_2_alg».proof.Defs
import proofs.«158460_j65481071397084_2_alg».proof.Proof.Gen.Kernel
import proofs.«158460_j65481071397084_2_alg».proof.Proof.Gen.Kernel.Skeleton
import proofs.«158460_j65481071397084_2_alg».proof.Proof.Gen.Kernel.Launch
import proofs.«158460_j65481071397084_2_alg».proof.Proof.Gen.Kernel.Points
import proofs.«158460_j65481071397084_2_alg».proof.Proof.Gen.Kernel.Frame
import proofs.«158460_j65481071397084_2_alg».proof.Proof.Gen.KernelIdeal
import proofs.«158460_j65481071397084_2_alg».proof.Proof.Gen.KernelIdeal.Skeleton
import proofs.«158460_j65481071397084_2_alg».proof.Proof.Gen.KernelIdeal.Launch
import proofs.«158460_j65481071397084_2_alg».proof.Proof.Gen.KernelIdeal.Points
import proofs.«158460_j65481071397084_2_alg».proof.Proof.Gen.KernelIdeal.Frame
import proofs.«158460_j65481071397084_2_alg».proof.Proof.Gen.ReferenceIdeal
import proofs.«158460_j65481071397084_2_alg».proof.Proof.Gen.KernelIdeal.Value
import proofs.«158460_j65481071397084_2_alg».proof.Proof.Gen.ReferenceIdeal.Run
import proofs.«158460_j65481071397084_2_alg».proof.Proof.Gen.ReferenceIdeal.Read
import proofs.«158460_j65481071397084_2_alg».proof.Proof.Gen.Pre_finite_inputs
import proofs.«158460_j65481071397084_2_alg».proof.Proof.RefRbf
import proofs.«158460_j65481071397084_2_alg».proof.Proof.Tiles
import Idealize.ShloMosaic.Adequacy
import Idealize.ShloMosaic.Init

noncomputable section

namespace Cert.Proof

open Idealize.ShloMosaic Idealize.ShloMosaic.TcCoe Idealize.SL.Sem

/-- The kernel as printed terminates without a fault and leaves its two argument arrays as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run to its result, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two families of points, the kernel's result array and the reference's both end at
    the kernel matrix `rbf x y` of the points: the kernel's tile by tile (`Tiles.run_rbf`), the reference's through its
    operations one at a time (`Ref.result_eq`). -/
theorem algebraic : Cert.algebraic_KernelIdeal_ReferenceIdeal := by
  intro m ρ m' ρ' _ hagree
  refine ⟨fun c => Cert.Rbf.rbf (Cert.Rbf.Entry.X m c) (Cert.Rbf.Entry.Y m c), Cert.Rbf.Tiles.run_rbf m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.Rbf.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
